-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554433 : Shape := ⟨1, ![33554433]⟩
abbrev S1 : Shape := ⟨1, ![1]⟩
abbrev S8192x4096 : Shape := ⟨2, ![8192, 4096]⟩
abbrev S_ : Shape := ⟨0, ![]⟩

class Facts : Prop where
  bcast_S_S33554433 : S_.BroadcastsInDim S33554433 (![] : Fin 0 → Fin S33554433.rank)
  reducesTo_S33554433_S_d0 : S33554433.ReducesTo [0] S_
  h_S_ : 0 < S_.numel
  bcast_S_S1 : S_.BroadcastsInDim S1 (![] : Fin 0 → Fin S1.rank)
  reducesTo_S1_S_d0 : S1.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S33554433 .f32) (main_arg1 : FVec F S1 .f32) (main_arg2 : FVec F S8192x4096 .f32) (main_arg3 : FVec F S1 .f32) : IVec S_ 1 :=
  let main_v0 : FVec F S33554433 .f32 := Host.absf main_arg0
  let main_cst : FVec F S_ .f32 := constant S_ .f32 0x7F800000#32
  let main_v1 : FVec F S33554433 .f32 := broadcastInDim S33554433 ![] bcast_S_S33554433 main_cst
  let main_v2 : IVec S33554433 1 := cmpf .olt main_v0 main_v1
  let main_c : IVec S_ 1 := constantI S_ 1 1#1
  let main_v3 : IVec S_ 1 := (fun x v => Host.reduce IntOp.andi x v reducesTo_S33554433_S_d0 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S33554433 : Shape := ⟨1, ![33554433]⟩
abbrev S1 : Shape := ⟨1, ![1]⟩
abbrev S8192x4096 : Shape := ⟨2, ![8192, 4096]⟩
abbrev S33554432 : Shape := ⟨1, ![33554432]⟩
abbrev S2x8x128 : Shape := ⟨3, ![2, 8, 128]⟩
abbrev S128x4096 : Shape := ⟨2, ![128, 4096]⟩
abbrev S1x8x128 : Shape := ⟨3, ![1, 8, 128]⟩
abbrev S1x128x4096 : Shape := ⟨3, ![1, 128, 4096]⟩
abbrev S1x1x1 : Shape := ⟨3, ![1, 1, 1]⟩
abbrev S_ : Shape := ⟨0, ![]⟩

abbrev nBuf : Space → Nat
  | .hbm => 21
  | .vmem => 6
  | .smem => 0
  | _ => 0

abbrev bufTy : (tb : Table) → Fin (tcTables nBuf tb) → BufTy
  | .hbm, ⟨0, _⟩ => ⟨S33554433, .f32⟩
  | .hbm, ⟨1, _⟩ => ⟨S1, .f32⟩
  | .hbm, ⟨2, _⟩ => ⟨S8192x4096, .f32⟩
  | .hbm, ⟨3, _⟩ => ⟨S1, .f32⟩
  | .hbm, ⟨4, _⟩ => ⟨S33554432, .f32⟩
  | .hbm, ⟨5, _⟩ => ⟨S8192x4096, .f32⟩
  | .hbm, ⟨6, _⟩ => ⟨S2x8x128, .f32⟩
  | .hbm, ⟨7, _⟩ => ⟨S1x1x1, .f32⟩
  | .hbm, ⟨8, _⟩ => ⟨S_, .f32⟩
  | .hbm, ⟨9, _⟩ => ⟨S1x1x1, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x8x128, .f32⟩
  | .local _ .vmem, ⟨5, _⟩ => ⟨S1x8x128, .f32⟩
  | _, _ => ⟨S33554433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32_4 : BitVec 32 := 1#32
  let v16 : BitVec 1 := Scalar.cmpi .eq arg0 c1_i32_4
  let arg1 : BitVec 32 := BitVec.ofNat 32 (i 1).val
  let c31_i32 : BitVec 32 := 31#32
  let v17 : BitVec 1 := Scalar.cmpi .eq arg1 c31_i32
  let v18 : BitVec 1 := Scalar.andi v16 v17
  let v19 : BitVec 32 := Scalar.extui v18
  let c0_i32_5 : BitVec 32 := 0#32
  let v20 : BitVec 1 := Scalar.cmpi .ne v19 c0_i32_5
  v20

def k0_cond3 (i : grid0.Coords) : BitVec 1 :=
  let arg0 : BitVec 32 := BitVec.ofNat 32 (i 0).val
  let c1_i32_4 : BitVec 32 := 1#32
  let v16 : BitVec 1 := Scalar.cmpi .eq arg0 c1_i32_4
  let arg1 : BitVec 32 := BitVec.ofNat 32 (i 1).val
  let c31_i32 : BitVec 32 := 31#32
  let v17 : BitVec 1 := Scalar.cmpi .eq arg1 c31_i32
  let v18 : BitVec 1 := Scalar.andi v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S33554433_S33554432_1 : S33554433.Slices ![1] S33554432
  shapeCasts_S33554432_S8192x4096 : S33554432.ShapeCasts S8192x4096
  inb_S1x8x128_S1x8x128_0_0_0 : ∀ a, (![0, 0, 0] : Fin 3 → Nat) a + S1x8x128.size a ≤ S1x8x128.size a
  h_S1x8x128 : 0 < S1x8x128.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  rotates_S128x4096_d1 : S128x4096.Rotates 1 none
  iota_S128x4096_d1_w32 : S128x4096.Iotas .tc 32 [1]
  iota_S128x4096_d0_w32 : S128x4096.Iotas .tc 32 [0]
  shapeCasts_S1x8x128_S1x8x128 : S1x8x128.ShapeCasts S1x8x128
  shapeCasts_S128x4096_S1x128x4096 : S128x4096.ShapeCasts S1x128x4096
  reduces_S1x128x4096_S1 : S1x128x4096.Reduces [1, 2] S1
  shapeCasts_S1_S1x1x1 : S1.ShapeCasts S1x1x1
  inpos_S1x1x1_p0_0_0 : ∀ a, (![0, 0, 0] : Fin 3 → Nat) a < S1x1x1.size a
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  slices_S33554433_S1_0 : S33554433.Slices ![0] S1
  shapeCasts_S1_S_ : S1.ShapeCasts S_
  bcast_S_S1 : S_.BroadcastsInDim S1 (![] : Fin 0 → Fin S1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S33554433 : Shape := ⟨1, ![33554433]⟩
abbrev S1 : Shape := ⟨1, ![1]⟩
abbrev S8192x4096 : Shape := ⟨2, ![8192, 4096]⟩
abbrev S33554432 : Shape := ⟨1, ![33554432]⟩
abbrev S8191x4095 : Shape := ⟨2, ![8191, 4095]⟩
abbrev S8192x1 : Shape := ⟨2, ![8192, 1]⟩
abbrev S8192x4095 : Shape := ⟨2, ![8192, 4095]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S33554433, .f32⟩
  | .hbm, ⟨1, _⟩ => ⟨S1, .f32⟩
  | .hbm, ⟨2, _⟩ => ⟨S8192x4096, .f32⟩
  | .hbm, ⟨3, _⟩ => ⟨S1, .f32⟩
  | .hbm, ⟨4, _⟩ => ⟨S33554432, .f32⟩
  | .hbm, ⟨5, _⟩ => ⟨S8192x4096, .f32⟩
  | .hbm, ⟨6, _⟩ => ⟨S8191x4095, .f32⟩
  | .hbm, ⟨7, _⟩ => ⟨S8192x1, .f32⟩
  | .hbm, ⟨8, _⟩ => ⟨S8192x4095, .f32⟩
  | .hbm, ⟨9, _⟩ => ⟨S8192x4096, .f32⟩
  | .hbm, ⟨10, _⟩ => ⟨S8191x4095, .f32⟩
  | .hbm, ⟨11, _⟩ => ⟨S8191x4095, .f32⟩
  | .hbm, ⟨12, _⟩ => ⟨S8191x4095, .f32⟩
  | .hbm, ⟨13, _⟩ => ⟨S8191x4095, .f32⟩
  | .hbm, ⟨14, _⟩ => ⟨S8191x4095, .f32⟩
  | .hbm, ⟨15, _⟩ => ⟨S8191x4095, .f32⟩
  | .hbm, ⟨16, _⟩ => ⟨S1, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | _, _ => ⟨S33554433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S33554433_S33554432_1 : S33554433.Slices ![1] S33554432
  shapeCasts_S33554432_S8192x4096 : S33554432.ShapeCasts S8192x4096
  slices_S8192x4096_S8191x4095_0_0 : S8192x4096.Slices ![0, 0] S8191x4095
  slices_S8192x4096_S8192x1_0_4095 : S8192x4096.Slices ![0, 4095] S8192x1
  slices_S8192x4096_S8192x4095_0_0 : S8192x4096.Slices ![0, 0] S8192x4095
  concatenates_S8192x1_S8192x4095_S8192x4096_d1 : Shape.Concatenates [S8192x1, S8192x4095] S8192x4096 1
  slices_S33554433_S1_0 : S33554433.Slices ![0] S1
  shapeCasts_S1_S_ : S1.ShapeCasts S_
  bcast_S_S1 : S_.BroadcastsInDim S1 (![] : Fin 0 → Fin S1.rank)
  reducesTo_S8191x4095_S_d0_1 : S8191x4095.ReducesTo [0, 1] S_
  h_S_ : 0 < S_.numel

variable [Facts₀]

class Facts : Prop extends Facts₀ where

variable [Facts]
-- ==== Proof.BitsConds.lean ====
/-
  The grid of the one kernel launch has 64 points, point `t` at core `t / 32`, step `t % 32`. The body branches three
  times on the coordinates: it clears the accumulator at the first step of a core, and adds the tile's sum either with
  the row mask (only at the very last point, the tile holding row 8191) or without it (every other point). Exactly one
  of the last two branches is taken at each point, so the output block is stored whole at every point and its window is
  never idle.
-/
import Idealize.ShloMosaic.Lib.Pipeline.Value
import proofs.«176487_j37709812858889_2_alg».proof.Proof.Gen.Kernel.Skeleton
import proofs.«176487_j37709812858889_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared exactly at the first step of each core. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-- The row-masked sum is added exactly at the last point. -/
theorem hcond2 : ∀ t : Fin cfg0.N, k0_cond2 (grid0.coords t) = 1#1 ↔ t.val = 63 :=
  (by decide +kernel : ∀ t : Fin grid0.N, k0_cond2 (grid0.coords t) = 1#1 ↔ t.val = 63)

/-- The unmasked sum is added at every other point. -/
theorem hcond3 : ∀ t : Fin cfg0.N, k0_cond3 (grid0.coords t) = 1#1 ↔ t.val < 63 :=
  (by decide +kernel : ∀ t : Fin grid0.N, k0_cond3 (grid0.coords t) = 1#1 ↔ t.val < 63)

/-- The two input windows are never idle. -/
theorem live0 : ∀ i : grid0.Coords, cfg0.idle 0 i = false := fun _ => rfl
theorem live1 : ∀ i : grid0.Coords, cfg0.idle 1 i = false := fun _ => rfl

/-- Nor is the output window: the two adding branches are complementary, so one of them stores at every point. -/
theorem live2 : ∀ i : grid0.Coords, cfg0.idle 2 i = false := by
  intro i
  show (!(k0_cond1 i == 1#1) && !(k0_cond2 i == 1#1) && !(k0_cond3 i == 1#1)) = false
  unfold k0_cond2 k0_cond3
  dsimp only
  generalize Scalar.andi (Scalar.cmpi .eq (BitVec.ofNat 32 (i 0).val) 1#32) (Scalar.cmpi .eq (BitVec.ofNat 32 (i 1).val) 31#32) = v
  generalize (k0_cond1 i == 1#1) = u
  revert u v
  decide

/-- Each window's current staging buffer at point `t`, as the launch passes it to the body, and that it is a whole buffer. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)

/-- The zero offsets of a rank-2 and a rank-3 whole-block access. -/
theorem hz2 : (![0, 0] : Fin 2 → Nat) = fun _ => 0 := by funext a; fin_cases a <;> rfl
theorem hz3 : (![0, 0, 0] : Fin 3 → Nat) = fun _ => 0 := by funext a; fin_cases a <;> rfl

/-- Reading the whole output block back right after it was cleared reads the cleared block. -/
theorem readback_cleared (v : View sig .tc .vmem S1x8x128 .f32) :
    v.readCov (Val := Elt F) [(⟨Rect.unit ![0, 0, 0] S1x8x128.size inb_S1x8x128_S1x8x128_0_0_0, (k0_pay1 (F := F) : Vec F S1x8x128 .f32)⟩ : View.Piece (Elt F) S1x8x128 .f32)]
        (Rect.unit ![0, 0, 0] S1x8x128.size inb_S1x8x128_S1x8x128_0_0_0).toLoadRect
      = (k0_pay1 (F := F) : Vec F S1x8x128 .f32) :=
  View.readCov_unit_zero (Val := Elt F) (S := S1x8x128) (e := .f32) v hz3 inb_S1x8x128_S1x8x128_0_0_0 (k0_pay1 (F := F))

end Cert.Kernel.Body

end
-- ==== Proof.BitsRunA.lean ====
/-
  The kernel body at the first step of a core. The inputs are the point's tile `x0` of the array cut from the input vector
  and the same tile `x1` of the weights; the output buffer is one [1, 8, 128] block all of whose entries carry the running
  sum. Here the block is cleared first, read back, and the tile's column-masked sum is added to the cleared block. Every
  store covers the whole block, so what the block holds afterwards is the last store's value, whatever it held before.
-/
import proofs.«176487_j37709812858889_2_alg».proof.Proof.BitsConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a core: whatever the block held, it ends at the cleared block plus the tile's sum. -/
theorem runA (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : k0_cond1 i = 1#1) (hc2 : ¬ k0_cond2 i = 1#1) (hc3 : k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay4 x0 x1 (k0_pay1 (F := F)))) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]
    exact congrArg (k0_pay4 x0 x1) (readback_cleared (F := F) arg4.view)

end Cert.Kernel.Body

end
-- ==== Proof.BitsRunB.lean ====
/-
  The kernel body at a step of a core that is neither its first nor the very last point. The inputs are the point's tile
  `x0` of the array cut from the input vector and the same tile `x1` of the weights; the output buffer is one [1, 8, 128]
  block all of whose entries carry the running sum. Here the tile's column-masked sum is added to what the block held. The
  store covers the whole block, so what the block holds afterwards is the stored value.
-/
import proofs.«176487_j37709812858889_2_alg».proof.Proof.BitsConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle step: the block ends at what it held plus the tile's sum. -/
theorem runB (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : ¬ k0_cond1 i = 1#1) (hc2 : ¬ k0_cond2 i = 1#1) (hc3 : k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay4 x0 x1 xo)) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]

end Cert.Kernel.Body

end
-- ==== Proof.BitsRunC.lean ====
/-
  The kernel body at the very last grid point, whose tile holds the one row that is left out of the sum. The inputs are the
  point's tile `x0` of the array cut from the input vector and the same tile `x1` of the weights; the output buffer is one
  [1, 8, 128] block all of whose entries carry the running sum. Here the tile's sum under the column mask and the row mask
  is added to what the block held. The store covers the whole block, so what the block holds afterwards is the stored value.
-/
import proofs.«176487_j37709812858889_2_alg».proof.Proof.BitsConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the block ends at what it held plus the tile's sum under both masks. -/
theorem runC (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : ¬ k0_cond1 i = 1#1) (hc2 : k0_cond2 i = 1#1) (hc3 : ¬ k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay3 i x0 x1 xo)) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]

end Cert.Kernel.Body

end
-- ==== Proof.BitsFrame.lean ====
/-
  The launch as a whole. What the output block holds after each grid point is defined by recursion on the point: at the
  first step of a core the cleared block plus the tile's sum; at the last point what the point before left plus the
  doubly masked sum; at every other point what the point before left plus the singly masked sum. The output block is
  written back only after the last step of each core, so between two steps of one core the staging buffer still holds
  what the step before left: that is what makes the recursion the truth. With this the body's three triples give the
  obligation at every point, and the launch theorem gives the run of the whole program: it terminates, the arguments are
  unchanged, the output array holds what the points wrote back and the later host lines are applied to that.
-/
import proofs.«176487_j37709812858889_2_alg».proof.Proof.BitsRunA
import proofs.«176487_j37709812858889_2_alg».proof.Proof.BitsRunB
import proofs.«176487_j37709812858889_2_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block holds after the body at position `n`. -/
def outsAt (c : Dev nD) : (n : ℕ) → n < cfg0.N → Vec F S1x8x128 .f32
  | 0, hn => k0_pay4 (iblk m c 0 ⟨0, hn⟩) (iblk m c 1 ⟨0, hn⟩) (k0_pay1 (F := F))
  | n + 1, hn =>
    if (n + 1) % 32 = 0 then
      k0_pay4 (iblk m c 0 ⟨n + 1, hn⟩) (iblk m c 1 ⟨n + 1, hn⟩) (k0_pay1 (F := F))
    else if n + 1 = 63 then
      k0_pay3 (grid0.coords ⟨n + 1, hn⟩) (iblk m c 0 ⟨n + 1, hn⟩) (iblk m c 1 ⟨n + 1, hn⟩) (outsAt c n (Nat.lt_of_succ_lt hn))
    else
      k0_pay4 (iblk m c 0 ⟨n + 1, hn⟩) (iblk m c 1 ⟨n + 1, hn⟩) (outsAt c n (Nat.lt_of_succ_lt hn))

/-- At the first step of a core: the cleared block plus the tile's sum. -/
theorem outsAt_first (c : Dev nD) (t : Fin cfg0.N) (h0 : t.val % 32 = 0) :
    outsAt m c t.val t.isLt = k0_pay4 (iblk m c 0 t) (iblk m c 1 t) (k0_pay1 (F := F)) := by
  obtain ⟨n, hn⟩ := t
  cases n with
  | zero => rfl
  | succ n => exact (if_pos h0).trans rfl

/-- At the last point: what the point before left plus the doubly masked sum. -/
theorem outsAt_last (c : Dev nD) (t : Fin cfg0.N) (h1 : t.val = 63) :
    outsAt m c t.val t.isLt = k0_pay3 (grid0.coords t) (iblk m c 0 t) (iblk m c 1 t)
      (outsAt m c (t.val - 1) (Nat.lt_of_le_of_lt (Nat.sub_le _ _) t.isLt)) := by
  obtain ⟨n, hn⟩ := t
  cases n with
  | zero => exact absurd h1 (Nat.ne_of_lt (by decide : (0 : ℕ) < 63))
  | succ n =>
    have h0 : ¬ (n + 1) % 32 = 0 := by dsimp only at h1; omega
    exact (if_neg h0).trans ((if_pos h1).trans rfl)

/-- At every other point: what the point before left plus the singly masked sum. -/
theorem outsAt_mid (c : Dev nD) (t : Fin cfg0.N) (h0 : ¬ t.val % 32 = 0) (h1 : ¬ t.val = 63) :
    outsAt m c t.val t.isLt = k0_pay4 (iblk m c 0 t) (iblk m c 1 t)
      (outsAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- The proof data of the launch on core `c`: the arrays as the region finds them; after the body at a point each input
    buffer at its tile and the output buffer at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input buffer holds its tile at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a step of a core other than its first the output buffer holds what the point before left: the point is not the
    first, the block was not written back in between, the window is never idle and its blocks are whole. -/
theorem before2_kept (c : Dev nD) (t : Fin cfg0.N) (h0 : ¬ t.val % 32 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live2 (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point: the closed forms of the conditions say which case the point is in, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 _], after0]
  rw [show (dats m 0 c).leavesExact 1 t = owns (c : Thread nD τ) (ms1 t) fullShare ((dats m 0 c).after 1 t) from by
      unfold Dat.leavesExact; rw [live1 _], after1]
  rw [show (dats m 0 c).leavesExact 2 t = owns (c : Thread nD τ) (ms2 t) fullShare ((dats m 0 c).after 2 t) from by
      unfold Dat.leavesExact; rw [live2 _], after2]
  have hN : t.val < 64 := lt_of_lt_of_eq t.isLt (show cfg0.N = 64 from N_0)
  by_cases h0 : t.val % 32 = 0
  · rw [outsAt_first m c t h0]
    iintro ⟨HΦ, Ho, ⟨%d0, H0⟩, ⟨%d1, H1⟩, ⟨%d2, H2⟩⟩
    iapply (runA c (grid0.coords t) _ _ _ _ _ _ ((hcond1 t).mpr h0) (fun h => by have := (hcond2 t).mp h; omega) ((hcond3 t).mpr (by omega)) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · simp only [before2_kept m c t h0]
    by_cases h1 : t.val = 63
    · rw [outsAt_last m c t h1]
      iintro ⟨HΦ, Ho, ⟨%d0, H0⟩, ⟨%d1, H1⟩, ⟨%d2, H2⟩⟩
      iapply (runC c (grid0.coords t) _ _ _ _ _ _ (fun h => h0 ((hcond1 t).mp h)) ((hcond2 t).mpr h1) (fun h => by have := (hcond3 t).mp h; omega) (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [outsAt_mid m c t h0 h1]
      iintro ⟨HΦ, Ho, ⟨%d0, H0⟩, ⟨%d1, H1⟩, ⟨%d2, H2⟩⟩
      iapply (runB c (grid0.coords t) _ _ _ _ _ _ (fun h => h0 ((hcond1 t).mp h)) (fun h => h1 ((hcond2 t).mp h)) ((hcond3 t).mpr (by omega)) (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every weakly fair execution of the program terminates, every array of the launch ends at what the proof data
    says was written back, and every other buffer at the later host lines applied to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealConds.lean ====
/-
  The grid of the one kernel launch has 64 points, point `t` at core `t / 32`, step `t % 32`. The body branches three
  times on the coordinates: it clears the accumulator at the first step of a core, and adds the tile's sum either with
  the row mask (only at the very last point, the tile holding row 8191) or without it (every other point). Exactly one
  of the last two branches is taken at each point, so the output block is stored whole at every point and its window is
  never idle.
-/
import Idealize.ShloMosaic.Lib.Pipeline.Value
import proofs.«176487_j37709812858889_2_alg».proof.Proof.Gen.KernelIdeal.Skeleton
import proofs.«176487_j37709812858889_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared exactly at the first step of each core. -/
theorem hcond1 : ∀ t : Fin cfg0.N, k0_cond1 (grid0.coords t) = 1#1 ↔ t.val % 32 = 0 :=
  (by decide +kernel : ∀ t : Fin grid0.N, k0_cond1 (grid0.coords t) = 1#1 ↔ t.val % 32 = 0)

/-- The row-masked sum is added exactly at the last point. -/
theorem hcond2 : ∀ t : Fin cfg0.N, k0_cond2 (grid0.coords t) = 1#1 ↔ t.val = 63 :=
  (by decide +kernel : ∀ t : Fin grid0.N, k0_cond2 (grid0.coords t) = 1#1 ↔ t.val = 63)

/-- The unmasked sum is added at every other point. -/
theorem hcond3 : ∀ t : Fin cfg0.N, k0_cond3 (grid0.coords t) = 1#1 ↔ t.val < 63 :=
  (by decide +kernel : ∀ t : Fin grid0.N, k0_cond3 (grid0.coords t) = 1#1 ↔ t.val < 63)

/-- The two input windows are never idle. -/
theorem live0 : ∀ i : grid0.Coords, cfg0.idle 0 i = false := fun _ => rfl
theorem live1 : ∀ i : grid0.Coords, cfg0.idle 1 i = false := fun _ => rfl

/-- Nor is the output window: the two adding branches are complementary, so one of them stores at every point. -/
theorem live2 : ∀ i : grid0.Coords, cfg0.idle 2 i = false := by
  intro i
  show (!(k0_cond1 i == 1#1) && !(k0_cond2 i == 1#1) && !(k0_cond3 i == 1#1)) = false
  unfold k0_cond2 k0_cond3
  dsimp only
  generalize Scalar.andi (Scalar.cmpi .eq (BitVec.ofNat 32 (i 0).val) 1#32) (Scalar.cmpi .eq (BitVec.ofNat 32 (i 1).val) 31#32) = v
  generalize (k0_cond1 i == 1#1) = u
  revert u v
  decide

/-- Each window's current staging buffer at point `t`, as the launch passes it to the body, and that it is a whole buffer. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)

/-- The zero offsets of a rank-2 and a rank-3 whole-block access. -/
theorem hz2 : (![0, 0] : Fin 2 → Nat) = fun _ => 0 := by funext a; fin_cases a <;> rfl
theorem hz3 : (![0, 0, 0] : Fin 3 → Nat) = fun _ => 0 := by funext a; fin_cases a <;> rfl

/-- Reading the whole output block back right after it was cleared reads the cleared block. -/
theorem readback_cleared (v : View sig .tc .vmem S1x8x128 .f32) :
    v.readCov (Val := Elt F) [(⟨Rect.unit ![0, 0, 0] S1x8x128.size inb_S1x8x128_S1x8x128_0_0_0, (k0_pay1 (F := F) : Vec F S1x8x128 .f32)⟩ : View.Piece (Elt F) S1x8x128 .f32)]
        (Rect.unit ![0, 0, 0] S1x8x128.size inb_S1x8x128_S1x8x128_0_0_0).toLoadRect
      = (k0_pay1 (F := F) : Vec F S1x8x128 .f32) :=
  View.readCov_unit_zero (Val := Elt F) (S := S1x8x128) (e := .f32) v hz3 inb_S1x8x128_S1x8x128_0_0_0 (k0_pay1 (F := F))

end Cert.KernelIdeal.Body

end
-- ==== Proof.IdealRunA.lean ====
/-
  The kernel body at the first step of a core. The inputs are the point's tile `x0` of the array cut from the input vector
  and the same tile `x1` of the weights; the output buffer is one [1, 8, 128] block all of whose entries carry the running
  sum. Here the block is cleared first, read back, and the tile's column-masked sum is added to the cleared block. Every
  store covers the whole block, so what the block holds afterwards is the last store's value, whatever it held before.
-/
import proofs.«176487_j37709812858889_2_alg».proof.Proof.IdealConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a core: whatever the block held, it ends at the cleared block plus the tile's sum. -/
theorem runA (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : k0_cond1 i = 1#1) (hc2 : ¬ k0_cond2 i = 1#1) (hc3 : k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay4 x0 x1 (k0_pay1 (F := F)))) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]
    exact congrArg (k0_pay4 x0 x1) (readback_cleared (F := F) arg4.view)

end Cert.KernelIdeal.Body

end
-- ==== Proof.IdealRunB.lean ====
/-
  The kernel body at a step of a core that is neither its first nor the very last point. The inputs are the point's tile
  `x0` of the array cut from the input vector and the same tile `x1` of the weights; the output buffer is one [1, 8, 128]
  block all of whose entries carry the running sum. Here the tile's column-masked sum is added to what the block held. The
  store covers the whole block, so what the block holds afterwards is the stored value.
-/
import proofs.«176487_j37709812858889_2_alg».proof.Proof.IdealConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle step: the block ends at what it held plus the tile's sum. -/
theorem runB (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : ¬ k0_cond1 i = 1#1) (hc2 : ¬ k0_cond2 i = 1#1) (hc3 : k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay4 x0 x1 xo)) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]

end Cert.KernelIdeal.Body

end
-- ==== Proof.IdealRunC.lean ====
/-
  The kernel body at the very last grid point, whose tile holds the one row that is left out of the sum. The inputs are the
  point's tile `x0` of the array cut from the input vector and the same tile `x1` of the weights; the output buffer is one
  [1, 8, 128] block all of whose entries carry the running sum. Here the tile's sum under the column mask and the row mask
  is added to what the block held. The store covers the whole block, so what the block holds afterwards is the stored value.
-/
import proofs.«176487_j37709812858889_2_alg».proof.Proof.IdealConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the block ends at what it held plus the tile's sum under both masks. -/
theorem runC (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x8x128 .f32) (harg4 : arg4.IsWhole)
    (hc1 : ¬ k0_cond1 i = 1#1) (hc2 : k0_cond2 i = 1#1) (hc3 : ¬ k0_cond3 i = 1#1)
    (x0 : Vec F S128x4096 .f32) (x1 : Vec F S128x4096 .f32) (xo : Vec F S1x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay3 i x0 x1 xo)) -∗ K ⟨⟩))
          ⊢ wp frame (wpE (defs₀ (F := F)) Variants.none c none) E (cc0__rosenbrock_kernel i arg2 harg2 arg3 harg3 arg4 harg4) K := by
    intro E K
    simp only [cc0__rosenbrock_kernel_eq_skeleton]; unfold cc0__rosenbrock_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    try sl_unfold_words
    rw [View.read_writes_eq_canon _ _ _ (fun y => ⟨_, List.mem_cons_self, View.mem_set_unit_zero hz3 inb_S1x8x128_S1x8x128_0_0_0 y⟩)]
    rw [View.canon_cons_unit_zero hz3]
    simp only [View.readAt_eq_ld, harg2.read_unread, harg3.read_unread, harg4.read_unread,
      View.ld_unit_zero (S := S128x4096) hz2, View.ld_unit_zero (S := S1x8x128) hz3]

end Cert.KernelIdeal.Body

end
-- ==== Proof.IdealFrame.lean ====
/-
  The launch as a whole. What the output block holds after each grid point is defined by recursion on the point: at the
  first step of a core the cleared block plus the tile's sum; at the last point what the point before left plus the
  doubly masked sum; at every other point what the point before left plus the singly masked sum. The output block is
  written back only after the last step of each core, so between two steps of one core the staging buffer still holds
  what the step before left: that is what makes the recursion the truth. With this the body's three triples give the
  obligation at every point, and the launch theorem gives the run of the whole program: it terminates, the arguments are
  unchanged, the output array holds what the points wrote back and the later host lines are applied to that.
-/
import proofs.«176487_j37709812858889_2_alg».proof.Proof.IdealRunA
import proofs.«176487_j37709812858889_2_alg».proof.Proof.IdealRunB
import proofs.«176487_j37709812858889_2_alg».proof.Proof.IdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block holds after the body at position `n`. -/
def outsAt (c : Dev nD) : (n : ℕ) → n < cfg0.N → Vec F S1x8x128 .f32
  | 0, hn => k0_pay4 (iblk m c 0 ⟨0, hn⟩) (iblk m c 1 ⟨0, hn⟩) (k0_pay1 (F := F))
  | n + 1, hn =>
    if (n + 1) % 32 = 0 then
      k0_pay4 (iblk m c 0 ⟨n + 1, hn⟩) (iblk m c 1 ⟨n + 1, hn⟩) (k0_pay1 (F := F))
    else if n + 1 = 63 then
      k0_pay3 (grid0.coords ⟨n + 1, hn⟩) (iblk m c 0 ⟨n + 1, hn⟩) (iblk m c 1 ⟨n + 1, hn⟩) (outsAt c n (Nat.lt_of_succ_lt hn))
    else
      k0_pay4 (iblk m c 0 ⟨n + 1, hn⟩) (iblk m c 1 ⟨n + 1, hn⟩) (outsAt c n (Nat.lt_of_succ_lt hn))

/-- At the first step of a core: the cleared block plus the tile's sum. -/
theorem outsAt_first (c : Dev nD) (t : Fin cfg0.N) (h0 : t.val % 32 = 0) :
    outsAt m c t.val t.isLt = k0_pay4 (iblk m c 0 t) (iblk m c 1 t) (k0_pay1 (F := F)) := by
  obtain ⟨n, hn⟩ := t
  cases n with
  | zero => rfl
  | succ n => exact (if_pos h0).trans rfl

/-- At the last point: what the point before left plus the doubly masked sum. -/
theorem outsAt_last (c : Dev nD) (t : Fin cfg0.N) (h1 : t.val = 63) :
    outsAt m c t.val t.isLt = k0_pay3 (grid0.coords t) (iblk m c 0 t) (iblk m c 1 t)
      (outsAt m c (t.val - 1) (Nat.lt_of_le_of_lt (Nat.sub_le _ _) t.isLt)) := by
  obtain ⟨n, hn⟩ := t
  cases n with
  | zero => exact absurd h1 (Nat.ne_of_lt (by decide : (0 : ℕ) < 63))
  | succ n =>
    have h0 : ¬ (n + 1) % 32 = 0 := by dsimp only at h1; omega
    exact (if_neg h0).trans ((if_pos h1).trans rfl)

/-- At every other point: what the point before left plus the singly masked sum. -/
theorem outsAt_mid (c : Dev nD) (t : Fin cfg0.N) (h0 : ¬ t.val % 32 = 0) (h1 : ¬ t.val = 63) :
    outsAt m c t.val t.isLt = k0_pay4 (iblk m c 0 t) (iblk m c 1 t)
      (outsAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- The proof data of the launch on core `c`: the arrays as the region finds them; after the body at a point each input
    buffer at its tile and the output buffer at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input buffer holds its tile at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a step of a core other than its first the output buffer holds what the point before left: the point is not the
    first, the block was not written back in between, the window is never idle and its blocks are whole. -/
theorem before2_kept (c : Dev nD) (t : Fin cfg0.N) (h0 : ¬ t.val % 32 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live2 (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point: the closed forms of the conditions say which case the point is in, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 _], after0]
  rw [show (dats m 0 c).leavesExact 1 t = owns (c : Thread nD τ) (ms1 t) fullShare ((dats m 0 c).after 1 t) from by
      unfold Dat.leavesExact; rw [live1 _], after1]
  rw [show (dats m 0 c).leavesExact 2 t = owns (c : Thread nD τ) (ms2 t) fullShare ((dats m 0 c).after 2 t) from by
      unfold Dat.leavesExact; rw [live2 _], after2]
  have hN : t.val < 64 := lt_of_lt_of_eq t.isLt (show cfg0.N = 64 from N_0)
  by_cases h0 : t.val % 32 = 0
  · rw [outsAt_first m c t h0]
    iintro ⟨HΦ, Ho, ⟨%d0, H0⟩, ⟨%d1, H1⟩, ⟨%d2, H2⟩⟩
    iapply (runA c (grid0.coords t) _ _ _ _ _ _ ((hcond1 t).mpr h0) (fun h => by have := (hcond2 t).mp h; omega) ((hcond3 t).mpr (by omega)) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · simp only [before2_kept m c t h0]
    by_cases h1 : t.val = 63
    · rw [outsAt_last m c t h1]
      iintro ⟨HΦ, Ho, ⟨%d0, H0⟩, ⟨%d1, H1⟩, ⟨%d2, H2⟩⟩
      iapply (runC c (grid0.coords t) _ _ _ _ _ _ (fun h => h0 ((hcond1 t).mp h)) ((hcond2 t).mpr h1) (fun h => by have := (hcond3 t).mp h; omega) (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [outsAt_mid m c t h0 h1]
      iintro ⟨HΦ, Ho, ⟨%d0, H0⟩, ⟨%d1, H1⟩, ⟨%d2, H2⟩⟩
      iapply (runB c (grid0.coords t) _ _ _ _ _ _ (fun h => h0 ((hcond1 t).mp h)) (fun h => h1 ((hcond2 t).mp h)) ((hcond3 t).mpr (by omega)) (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every weakly fair execution of the program terminates, every array of the launch ends at what the proof data
    says was written back, and every other buffer at the later host lines applied to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The quantity both programs compute. With `Y` the 8192 × 4096 array cut from the input vector and `B` the weights,
  the summand at row `R`, column `C` is `B · d · d` with `d = Y[R, C] − Y[R, C−1]²`, the column before taken
  cyclically (column 0 looks at column 4095). The result sums it over the rows below 8191 and the columns below 4095.
-/
import Idealize.ShloMosaic.PureOps.Ideal
import Idealize.ShloMosaic.Lib.ValueIdx

noncomputable section

namespace Cert.Rosen

open Idealize.ShloMosaic Idealize.ShloMosaic.ValueIdx

/-- The column before `C` among 4096 columns, cyclically. -/
def prevCol (C : Fin 4096) : Fin 4096 := ⟨(C.val + 4095) % 4096, Nat.mod_lt _ (by decide)⟩

/-- The difference `Y[R, C] − Y[R, C−1]²`. -/
def diff (Y : (⟨2, ![8192, 4096]⟩ : Shape).Idx → EReal) (R : Fin 8192) (C : Fin 4096) : EReal :=
  Y (ix2 R C) - Y (ix2 R (prevCol C)) * Y (ix2 R (prevCol C))

/-- The summand at row `R`, column `C`: `(B · d) · d`. -/
def term (Y B : (⟨2, ![8192, 4096]⟩ : Shape).Idx → EReal) (R : Fin 8192) (C : Fin 4096) : EReal :=
  B (ix2 R C) * diff Y R C * diff Y R C

/-- The summand at natural-number coordinates, zero outside the array. -/
def termN (Y B : (⟨2, ![8192, 4096]⟩ : Shape).Idx → EReal) (R C : ℕ) : EReal :=
  if h : R < 8192 ∧ C < 4096 then term Y B ⟨R, h.1⟩ ⟨C, h.2⟩ else 0

/-- The total: the summand over rows below 8191 and columns below 4095. -/
def total (Y B : (⟨2, ![8192, 4096]⟩ : Shape).Idx → EReal) : EReal :=
  ∑ R : Fin 8191, ∑ C : Fin 4095, termN Y B R.val C.val

end Cert.Rosen

end
-- ==== Proof.IdealPay.lean ====
import proofs.«176487_j37709812858889_2_alg».proof.Proof.Gen.KernelIdeal.Skeleton
import proofs.«176487_j37709812858889_2_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-!
# The kernel body's payloads read at an index, at the ideal values

At the ideal values a float is an extended real and every operation is exact. On a tile `x0`
(128 rows × 4096 columns of the array cut from the input) and the same tile `x1` of the weights,
the body forms, at row `r` and column `c`, the product `(x1 · d) · d` with
`d = x0[r, c] − x0[r, c − 1]²`, the column before taken cyclically, and replaces it by zero in the
last column. It then adds the sum of all 128 × 4096 of these entries to every entry of the block it
is handed; in the last tile the entries of the rows at or beyond row 8191 of the whole array are
replaced by zero first.
-/

noncomputable section

namespace Cert.Rosen

open Cert.KernelIdeal Cert.KernelIdeal.Gen Idealize.ShloMosaic Idealize.ShloMosaic.ValueIdx

/-- The summand of the tile at row `r`, column `c`: `(x1 · d) · d` with
`d = x0[r, c] − x0[r, c − 1]²`, the column before taken cyclically. -/
def tileTerm (x0 x1 : Vec Ideal S128x4096 .f32) (r : Fin 128) (c : Fin 4096) : EReal :=
  x1 (ix2 r c) * (x0 (ix2 r c) - x0 (ix2 r (prevCol c)) * x0 (ix2 r (prevCol c))) * (x0 (ix2 r c) - x0 (ix2 r (prevCol c)) * x0 (ix2 r (prevCol c)))

/-! ## Words: the signed comparison of two small naturals -/

/-- A natural below `2³¹`, as a 32-bit word read signed, is itself. -/
theorem toInt_ofNat_small (n : ℕ) (hn : n < 2147483648) : (BitVec.ofNat 32 n).toInt = (n : ℤ) := by
  have e : (BitVec.ofNat 32 n).toNat = n := by
    rw [BitVec.toNat_ofNat]; exact Nat.mod_eq_of_lt (by omega)
  rw [BitVec.toInt_eq_toNat_of_lt (by rw [e]; omega), e]

/-- The signed "less than" of the 32-bit words of two naturals below `2³¹` is the bit of `n < m`. -/
theorem slt_ofNat (n m : ℕ) (hn : n < 2147483648) (hm : m < 2147483648) :
    IntOp.cmpi .slt (BitVec.ofNat 32 n) (BitVec.ofNat 32 m) = if n < m then 1#1 else 0#1 := by
  show BitVec.ofBool ((BitVec.ofNat 32 n).slt (BitVec.ofNat 32 m)) = _
  rw [BitVec.slt_eq_decide, toInt_ofNat_small n hn, toInt_ofNat_small m hm]
  by_cases h : n < m
  · rw [if_pos h, decide_eq_true (by exact_mod_cast h)]; rfl
  · rw [if_neg h, decide_eq_false (by exact_mod_cast h)]; rfl

/-- A select on the bit of a decidable proposition is the `if` on it. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-! ## The lane rotation -/

/-- The tile rotated by one lane reads, at column `c`, the column before, cyclically. -/
theorem rot_apply (x : Vec Ideal S128x4096 .f32) (r : Fin 128) (c : Fin 4096) :
    dynamicRotate (1 : Fin 2) 1#32 none x rotates_S128x4096_d1 (ix2 r c) = x (ix2 r (prevCol c)) :=
  dynamicRotate_apply (s := S128x4096) (1 : Fin 2) 1#32 x rotates_S128x4096_d1 (ix2 r c) (ix2 r (prevCol c)) (by
    intro b
    match b with
    | ⟨0, _⟩ => rfl
    | ⟨1, _⟩ =>
      show (c.val + 4095) % 4096 = (c.val + 4096 - (1#32 : BitVec 32).toNat % 4096) % 4096
      have h1 : (1#32 : BitVec 32).toNat = 1 := rfl
      rw [h1]
      omega)

/-! ## The payloads -/

/-- The block the first step of each core's run stores is zero everywhere. -/
theorem pay1_apply (j : S1x8x128.Idx) : k0_pay1 (F := Ideal) j = 0 := by
  unfold k0_pay1
  exact Ideal.ofBits_zero_f32

/-- The masked summand: at row `r` and column `c` the body's product, and zero in the last column. -/
theorem pay2_apply (x0 x1 : Vec Ideal S128x4096 .f32) (r : Fin 128) (c : Fin 4096) :
    k0_pay2 (F := Ideal) x0 x1 (ix2 r c) = if c.val < 4095 then tileTerm x0 x1 r c else 0 := by
  have hx : shapeCast S128x4096 x0 shapeCasts_S128x4096_S128x4096 = x0 := shapeCast_self x0 _
  have hcmp : IntOp.cmpi .slt (iota .tc S128x4096 32 [(1 : Fin 2)] iota_S128x4096_d1_w32 (ix2 r c)) 4095#32
      = if c.val < 4095 then 1#1 else 0#1 :=
    (congrArg (fun w => IntOp.cmpi .slt w 4095#32)
      (iota_single_apply .tc S128x4096 32 (1 : Fin 2) iota_S128x4096_d1_w32 (ix2 r c))).trans
      (slt_ofNat c.val 4095 (by have := c.isLt; omega) (by omega))
  unfold k0_pay2
  show Scalar.select (IntOp.cmpi .slt (iota .tc S128x4096 32 [(1 : Fin 2)] iota_S128x4096_d1_w32 (ix2 r c)) 4095#32)
      (x1 (ix2 r c)
        * (shapeCast S128x4096 x0 shapeCasts_S128x4096_S128x4096 (ix2 r c)
            - dynamicRotate (1 : Fin 2) 1#32 none (shapeCast S128x4096 x0 shapeCasts_S128x4096_S128x4096) rotates_S128x4096_d1 (ix2 r c)
              * dynamicRotate (1 : Fin 2) 1#32 none (shapeCast S128x4096 x0 shapeCasts_S128x4096_S128x4096) rotates_S128x4096_d1 (ix2 r c))
        * (shapeCast S128x4096 x0 shapeCasts_S128x4096_S128x4096 (ix2 r c)
            - dynamicRotate (1 : Fin 2) 1#32 none (shapeCast S128x4096 x0 shapeCasts_S128x4096_S128x4096) rotates_S128x4096_d1 (ix2 r c)
              * dynamicRotate (1 : Fin 2) 1#32 none (shapeCast S128x4096 x0 shapeCasts_S128x4096_S128x4096) rotates_S128x4096_d1 (ix2 r c)))
      (Ideal.ofBits .f32 0x00000000#32) = _
  rw [hcmp, hx, rot_apply, Ideal.ofBits_zero_f32, select_ite]
  rfl

/-! ## The sum of all entries of a tile -/

/-- A `[1, a, b]` index set is the product of its last two coordinate ranges: its first coordinate
can only be `0` … -/
def idxEquiv3u {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ =>
      have h : (i ⟨0, Nat.zero_lt_succ 2⟩).val < 1 := (i ⟨0, Nat.zero_lt_succ 2⟩).isLt
      exact Fin.ext (by show (0 : ℕ) = (i ⟨0, _⟩).val; omega)
    | ⟨1, _⟩ => rfl
    | ⟨2, _⟩ => rfl
  right_inv _ := rfl

/-- … so a sum over it is the double sum over those two coordinates. -/
theorem sum_idx3u {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (idxEquiv3u (a := a) (b := b)).symm f, Fintype.sum_prod_type]
  rfl

/-- The sum of all entries of a tile viewed as `[1, 128, 4096]` is the double sum over the tile's rows
and columns. -/
theorem sum_cast_tile (w : FVec Ideal S128x4096 .f32) :
    ∑ i : S1x128x4096.Idx, shapeCast S1x128x4096 w shapeCasts_S128x4096_S1x128x4096 i
      = ∑ r : Fin 128, ∑ c : Fin 4096, w (ix2 r c) :=
  (sum_idx3u _).trans (Finset.sum_congr rfl fun r _ => Finset.sum_congr rfl fun c _ =>
    shapeCast_ab_1ab_apply w shapeCasts_S128x4096_S1x128x4096 (0 : Fin 1) r c)

/-- The reduction of that view over its last two axes has one entry, the sum of every entry of the
tile: a sum into a shape all of whose axes have size one is the sum over every source index. -/
theorem reduce_total (w : FVec Ideal S128x4096 .f32) (k : S1.Idx) :
    multiReduction .add [1, 2] S1 (shapeCast S1x128x4096 w shapeCasts_S128x4096_S1x128x4096) 0x00000000#32
        reduces_S1x128x4096_S1 (.inl rfl) rfl k
      = ∑ r : Fin 128, ∑ c : Fin 4096, w (ix2 r c) :=
  (Ideal.multiReduction_add_total (shapeCast S1x128x4096 w shapeCasts_S128x4096_S1x128x4096) 0x00000000#32
    reduces_S1x128x4096_S1 (fun b => by match b with | ⟨0, _⟩ => rfl) (.inl rfl) rfl k).trans (sum_cast_tile w)

/-- The entry at `(0, 0, 0)` of a one-entry vector viewed as `[1, 1, 1]` is the value the vector takes
at each of its indices. -/
theorem extract_cast_const (v : FVec Ideal S1 .f32) (T : EReal) (hv : ∀ k, v k = T) :
    extractAt ![0, 0, 0] (shapeCast S1x1x1 v shapeCasts_S1_S1x1x1) inpos_S1x1x1_p0_0_0 = T := by
  unfold extractAt shapeCast
  exact hv _

/-- A block plus, at every entry, the one entry of a one-entry vector: at each index the block's
entry plus the value that vector takes. -/
theorem addf_extract (xo : Vec Ideal S1x8x128 .f32) (v : FVec Ideal S1 .f32) (T : EReal) (hv : ∀ k, v k = T)
    (j : S1x8x128.Idx) :
    addf (shapeCast S1x8x128 xo shapeCasts_S1x8x128_S1x8x128)
        (broadcast S1x8x128 (extractAt ![0, 0, 0] (shapeCast S1x1x1 v shapeCasts_S1_S1x1x1) inpos_S1x1x1_p0_0_0)) j
      = xo j + T := by
  refine (addf_apply _ _ j).trans ?_
  rw [shapeCast_self, broadcast_apply, extract_cast_const v T hv]

/-- The running block plus the sum of all 128 × 4096 masked summands of the tile, at every entry. -/
theorem pay4_apply (x0 x1 : Vec Ideal S128x4096 .f32) (xo : Vec Ideal S1x8x128 .f32) (j : S1x8x128.Idx) :
    k0_pay4 (F := Ideal) x0 x1 xo j
      = xo j + ∑ r : Fin 128, ∑ c : Fin 4096, (if c.val < 4095 then tileTerm x0 x1 r c else 0) := by
  unfold k0_pay4
  exact (addf_extract xo _ _ (reduce_total (k0_pay2 (F := Ideal) x0 x1)) j).trans
    (congrArg (xo j + ·) (Finset.sum_congr rfl fun r _ => Finset.sum_congr rfl fun c _ => pay2_apply x0 x1 r c))

/-- At grid coordinates `(1, 31)` the first row of the tile is row `(1 · 32 + 31) · 128 = 8064` of
the whole array. -/
theorem rowBase_word :
    Scalar.muli (Scalar.addi (Scalar.muli (BitVec.ofNat 32 1) 32#32) (BitVec.ofNat 32 31)) 128#32
      = BitVec.ofNat 32 8064 := by decide

/-- The last tile's summand: the masked summand where the row of the whole array, `8064 + r`, is
below 8191, and zero in the rows at or beyond it. -/
theorem pay3_row (i : grid0.Coords) (hi0 : (i 0).val = 1) (hi1 : (i 1).val = 31)
    (x0 x1 : Vec Ideal S128x4096 .f32) (r : Fin 128) (c : Fin 4096) :
    select (cmpi .slt
        (addi (iota .tc S128x4096 32 [(0 : Fin 2)] iota_S128x4096_d0_w32)
          (broadcast S128x4096 (Scalar.muli (Scalar.addi (Scalar.muli (BitVec.ofNat 32 (i 0).val) 32#32)
            (BitVec.ofNat 32 (i 1).val)) 128#32)))
        (broadcast S128x4096 8191#32))
      (k0_pay2 (F := Ideal) x0 x1) (broadcast S128x4096 (Scalar.ofBits (F := Ideal) .f32 0x00000000#32)) (ix2 r c)
      = if c.val < 4095 ∧ 128 * 63 + r.val < 8191 then tileTerm x0 x1 r c else 0 := by
  show Scalar.select (IntOp.cmpi .slt
        (IntOp.addi (iota .tc S128x4096 32 [(0 : Fin 2)] iota_S128x4096_d0_w32 (ix2 r c))
          (Scalar.muli (Scalar.addi (Scalar.muli (BitVec.ofNat 32 (i 0).val) 32#32)
            (BitVec.ofNat 32 (i 1).val)) 128#32))
        8191#32)
      (k0_pay2 (F := Ideal) x0 x1 (ix2 r c)) (Ideal.ofBits .f32 0x00000000#32) = _
  have hadd : IntOp.addi (BitVec.ofNat 32 r.val) (BitVec.ofNat 32 8064) = BitVec.ofNat 32 (r.val + 8064) :=
    (BitVec.ofNat_add r.val 8064).symm
  rw [hi0, hi1, rowBase_word, iota_single_apply, hadd,
    slt_ofNat (r.val + 8064) 8191 (by have := r.isLt; omega) (by omega), select_ite, pay2_apply,
    Ideal.ofBits_zero_f32]
  have e : (r.val + 8064 < 8191) ↔ (128 * 63 + r.val < 8191) := by omega
  by_cases h1 : c.val < 4095 <;> by_cases h2 : r.val + 8064 < 8191
  · rw [if_pos h2, if_pos h1, if_pos ⟨h1, e.mp h2⟩]
  · rw [if_neg h2, if_neg (fun h => h2 (e.mpr h.2))]
  · rw [if_pos h2, if_neg h1, if_neg (fun h => h1 h.1)]
  · rw [if_neg h2, if_neg (fun h => h1 h.1)]

/-- In the last tile: the running block plus the sum of the tile's masked summands over the rows
that lie below row 8191 of the whole array, at every entry. -/
theorem pay3_apply (i : grid0.Coords) (hi0 : (i 0).val = 1) (hi1 : (i 1).val = 31)
    (x0 x1 : Vec Ideal S128x4096 .f32) (xo : Vec Ideal S1x8x128 .f32) (j : S1x8x128.Idx) :
    k0_pay3 (F := Ideal) i x0 x1 xo j
      = xo j + ∑ r : Fin 128, ∑ c : Fin 4096,
          (if c.val < 4095 ∧ 128 * 63 + r.val < 8191 then tileTerm x0 x1 r c else 0) := by
  unfold k0_pay3
  exact (addf_extract xo _ _ (reduce_total _) j).trans
    (congrArg (xo j + ·) (Finset.sum_congr rfl fun r _ => Finset.sum_congr rfl fun c _ =>
      pay3_row i hi0 hi1 x0 x1 r c))

end Cert.Rosen

end
-- ==== Proof.IdealBlocks.lean ====
import proofs.«176487_j37709812858889_2_alg».proof.Proof.Gen.KernelIdeal.Frame
import Idealize.ShloMosaic.Lib.ValueIdx
import Idealize.ShloMosaic.Lib.Pipeline.Value
import Idealize.ShloMosaic.Lib.StableHlo.Run

/-
  The two input arrays as the kernel sees them, block by block. Both are 8192 × 4096 and are cut into 64 blocks of
  128 rows by all 4096 columns; grid point `t` (written `(p, i)` with `p = t / 32`, `i = t % 32`) is handed block
  `32 · p + i = t`, which starts at row `128 · t`. So row `r`, column `c` of the block at point `t` is row
  `128 · t + r`, column `c` of the array. The first array is not an argument but is computed before the launch: the
  input vector without its first entry, laid out row by row as 8192 rows of 4096.
-/

noncomputable section

namespace Cert.Rosen

open Cert.KernelIdeal Cert.KernelIdeal.Gen Idealize.ShloMosaic Idealize.ShloMosaic.ValueIdx Idealize.ShloMosaic.TcCoe Idealize.SL.Sem

/-- The first array when the launch begins: the input vector from its entry 1 on, reshaped row by row to
    8192 × 4096. -/
theorem V_main_v1 (m : (ℓ : Loc nD τ sig) → Buf (Elt Ideal) ℓ) (c : Dev nD) :
    (V m c main_v1 : S8192x4096.Idx → EReal)
      = shapeCast S8192x4096 (extractStridedSlice S33554432 ![1] (m ((c.tc : Thread nD τ).loc main_arg0)) slices_S33554433_S33554432_1) shapeCasts_S33554432_S8192x4096 := by
  show StableHlo.after hostOps0 (fun b => m (c, b)) (Proc.devRef .tc main_v1) = _
  after_results
  rfl

/-- The first array's block index at point `t` is `(t, 0)`: `32 · (t / 32) + t % 32 = t` rows of blocks down, no
    columns across. Checked at each of the 64 points. -/
theorem idx0 : ∀ t : Fin cfg0.N, win0_0.index t (0 : Fin 2) = t.val ∧ win0_0.index t (1 : Fin 2) = 0 :=
  (by decide +kernel : ∀ t : Fin grid0.N, _)

/-- The second array's block index at point `t` is `(t, 0)` as well. -/
theorem idx1 : ∀ t : Fin cfg0.N, win0_1.index t (0 : Fin 2) = t.val ∧ win0_1.index t (1 : Fin 2) = 0 :=
  (by decide +kernel : ∀ t : Fin grid0.N, _)

/-- Entry `y` of the first array's block at point `t` is the array's entry `k` whenever `k` is `128 · t` rows below
    `y` in the same column: a block's coordinate is the block index times the block's extent plus the coordinate
    inside the block. -/
theorem iblk0_at (m : (ℓ : Loc nD τ sig) → Buf (Elt Ideal) ℓ) (c : Dev nD) (t : Fin cfg0.N)
    (y : S128x4096.Idx) (k : S8192x4096.Idx)
    (hk0 : (k 0).val = 128 * t.val + (y 0).val) (hk1 : (k 1).val = (y 1).val) :
    (iblk (F := Ideal) m c 0 t : S128x4096.Idx → EReal) y = (V m c main_v1 : S8192x4096.Idx → EReal) k := by
  obtain ⟨e0, e1⟩ := idx0 t
  unfold iblk
  rw [View.read_apply]
  show V m c main_v1 _ = V m c main_v1 _
  congr 1
  funext a
  apply Fin.ext
  match a with
  | ⟨0, _⟩ => show win0_0.index t 0 * 128 + 1 * (y 0).val = (k 0).val; rw [e0, hk0]; omega
  | ⟨1, _⟩ => show win0_0.index t 1 * 4096 + 1 * (y 1).val = (k 1).val; rw [e1, hk1]; omega

/-- The same for the second array, which is an argument and reaches the launch unchanged. -/
theorem iblk1_at (m : (ℓ : Loc nD τ sig) → Buf (Elt Ideal) ℓ) (c : Dev nD) (t : Fin cfg0.N)
    (y : S128x4096.Idx) (k : S8192x4096.Idx)
    (hk0 : (k 0).val = 128 * t.val + (y 0).val) (hk1 : (k 1).val = (y 1).val) :
    (iblk (F := Ideal) m c 1 t : S128x4096.Idx → EReal) y
      = (m ((c.tc : Thread nD τ).loc main_arg2) : S8192x4096.Idx → EReal) k := by
  obtain ⟨e0, e1⟩ := idx1 t
  unfold iblk
  rw [View.read_apply]
  show V m c main_arg2 _ = m ((c.tc : Thread nD τ).loc main_arg2) _
  rw [V_main_arg2]
  congr 1
  funext a
  apply Fin.ext
  match a with
  | ⟨0, _⟩ => show win0_1.index t 0 * 128 + 1 * (y 0).val = (k 0).val; rw [e0, hk0]; omega
  | ⟨1, _⟩ => show win0_1.index t 1 * 4096 + 1 * (y 1).val = (k 1).val; rw [e1, hk1]; omega

/-- Row `r`, column `cc` of the first array's block at point `t` is row `128 · t + r`, column `cc` of the array. -/
theorem iblk0_apply (m : (ℓ : Loc nD τ sig) → Buf (Elt Ideal) ℓ) (c : Dev nD) (t : Fin cfg0.N) (r : Fin 128) (cc : Fin 4096) :
    iblk (F := Ideal) m c 0 t (ix2 r cc)
      = V m c main_v1 (ix2 (⟨128 * t.val + r.val, by have := t.isLt; have := r.isLt; have : cfg0.N = 64 := N_0; omega⟩ : Fin 8192) cc) :=
  iblk0_at m c t (ix2 r cc) _ rfl rfl

/-- Row `r`, column `cc` of the second array's block at point `t` is row `128 · t + r`, column `cc` of the argument. -/
theorem iblk1_apply (m : (ℓ : Loc nD τ sig) → Buf (Elt Ideal) ℓ) (c : Dev nD) (t : Fin cfg0.N) (r : Fin 128) (cc : Fin 4096) :
    iblk (F := Ideal) m c 1 t (ix2 r cc)
      = m ((c.tc : Thread nD τ).loc main_arg2) (ix2 (⟨128 * t.val + r.val, by have := t.isLt; have := r.isLt; have : cfg0.N = 64 := N_0; omega⟩ : Fin 8192) cc) :=
  iblk1_at m c t (ix2 r cc) _ rfl rfl

end Cert.Rosen

end
-- ==== Proof.LibTileSum.lean ====
import Mathlib

/-!
# Regrouping a masked, tiled sum

General lemmas over an additive commutative monoid `M` (only commutativity and
associativity of `+` are used: no subtraction, no cancellation).

* `accum` is a running sum that restarts from zero at every multiple of 32;
  `accum_block` evaluates it at the end of a block of 32 and `accum_two` adds the
  two blocks that make up 64 consecutive terms.
* `masked_tile_sum` regroups a sum over 64 tiles of 128 rows and 4096 columns, in
  which the last row and the last column are replaced by zero, as a single sum over
  8191 rows and 4095 columns.
-/

open Finset

namespace Cert.Rosen

variable {M : Type*} [AddCommMonoid M]

/-- The running sum of T, restarted from zero at every multiple of 32. -/
def accum (T : ℕ → M) : ℕ → M
  | 0 => 0 + T 0
  | n + 1 => if (n + 1) % 32 = 0 then 0 + T (n + 1) else accum T n + T (n + 1)

/-- At a multiple of 32 the running sum restarts: it is just the current term. -/
theorem accum_reset (T : ℕ → M) (n : ℕ) (h : n % 32 = 0) : accum T n = T n := by
  cases n with
  | zero => simp only [accum, zero_add]
  | succ n => simp only [accum, h, if_true, zero_add]

/-- Away from the multiples of 32 the running sum adds the current term to the
previous value. -/
theorem accum_step (T : ℕ → M) (n : ℕ) (h : (n + 1) % 32 ≠ 0) :
    accum T (n + 1) = accum T n + T (n + 1) := by
  simp only [accum, h, if_false]

/-- Inside the block that starts at `32 * p`, the running sum at offset `k ≤ 31` is
the sum of the first `k + 1` terms of the block: the restart happens exactly at
offset `0`, and no other offset `≤ 31` is a multiple of 32. -/
theorem accum_prefix (T : ℕ → M) (p k : ℕ) (hk : k ≤ 31) :
    accum T (32 * p + k) = ∑ i ∈ range (k + 1), T (32 * p + i) := by
  induction k with
  | zero =>
    rw [accum_reset T (32 * p + 0) (by omega)]
    simp only [zero_add, sum_range_one]
  | succ k ih =>
    have hne : (32 * p + k + 1) % 32 ≠ 0 := by omega
    rw [← add_assoc, accum_step T (32 * p + k) hne, ih (by omega),
      sum_range_succ _ (k + 1), add_assoc]

/-- At the end of the block of 32 that starts at `32 * p`, the running sum is the sum
of the 32 terms of that block. -/
theorem accum_block (T : ℕ → M) (p : ℕ) :
    accum T (32 * p + 31) = ∑ i : Fin 32, T (32 * p + i.val) := by
  rw [accum_prefix T p 31 le_rfl]
  exact (Fin.sum_univ_eq_sum_range (fun i => T (32 * p + i)) 32).symm

/-- The values of the running sum at the ends of the first two blocks of 32 add up to
the sum of the first 64 terms: `range 64` is `range 32` followed by its shift by 32. -/
theorem accum_two (T : ℕ → M) : accum T 31 + accum T 63 = ∑ t : Fin 64, T t.val := by
  have h0 : accum T 31 = ∑ i ∈ range 32, T i := by
    have := accum_prefix T 0 31 le_rfl
    simpa only [Nat.mul_zero, zero_add] using this
  have h1 : accum T 63 = ∑ i ∈ range 32, T (32 + i) := by
    have := accum_prefix T 1 31 le_rfl
    simpa only [Nat.mul_one] using this
  rw [h0, h1, Fin.sum_univ_eq_sum_range (fun i => T i) 64]
  exact (sum_range_add (fun i => T i) 32 32).symm

/-- A sum over `m = n + 1` indices whose last term is replaced by zero is the sum
over the first `n` indices. -/
theorem sum_mask_last {n m : ℕ} (h : m = n + 1) (f : ℕ → M) :
    ∑ i : Fin m, (if i.val < n then f i.val else 0) = ∑ i : Fin n, f i.val := by
  subst h
  rw [Fin.sum_univ_castSucc]
  simp only [Fin.coe_castSucc, Fin.is_lt, if_true, Fin.val_last, lt_irrefl, if_false,
    add_zero]

/-- Tiling: a sum over `m = a * b` consecutive indices, cut into `a` tiles of `b`
indices each (index `b * t + r` is position `r` of tile `t`). -/
theorem sum_tile {a b m : ℕ} (h : m = a * b) (F : ℕ → M) :
    ∑ t : Fin a, ∑ r : Fin b, F (b * t.val + r.val) = ∑ R : Fin m, F R.val := by
  subst h
  rw [← Equiv.sum_comp finProdFinEquiv (fun R : Fin (a * b) => F R.val),
    Fintype.sum_prod_type]
  refine sum_congr rfl fun t _ => sum_congr rfl fun r _ => ?_
  simp only [finProdFinEquiv_apply_val]
  rw [add_comm]

/-- One masked row: with the last of 4096 columns set to zero, and the whole row set
to zero when the row index is not below 8191, the row sum is the sum of the first
4095 columns if the row index is below 8191 and zero otherwise. -/
theorem sum_mask_row (g : ℕ → ℕ → M) (R : ℕ) :
    ∑ c : Fin 4096, (if c.val < 4095 ∧ R < 8191 then g R c.val else 0)
      = if R < 8191 then ∑ C : Fin 4095, g R C.val else 0 := by
  by_cases hR : R < 8191
  · simp only [hR, and_true, if_true]
    exact sum_mask_last (by norm_num) (fun c => g R c)
  · simp only [hR, and_false, if_false, sum_const_zero]

/-- Summing, over 64 tiles of 128 rows and 4096 columns, the entries `g (128 * t + r) c`
with the last row (index 8191) and the last column (index 4095) replaced by zero, gives
the sum of `g` over the 8191 × 4095 unmasked entries. -/
theorem masked_tile_sum (g : ℕ → ℕ → M) :
    ∑ t : Fin 64, ∑ r : Fin 128, ∑ c : Fin 4096,
        (if c.val < 4095 ∧ 128 * t.val + r.val < 8191 then g (128 * t.val + r.val) c.val else 0)
      = ∑ R : Fin 8191, ∑ C : Fin 4095, g R.val C.val := by
  -- the 64 tiles of 128 rows are the 8192 rows `128 * t + r`
  refine (sum_tile (a := 64) (b := 128) (m := 8192) (by norm_num)
    (fun R => ∑ c : Fin 4096, (if c.val < 4095 ∧ R < 8191 then g R c.val else 0))).trans ?_
  -- each row drops its last column, and is zero unless the row index is below 8191
  simp only [sum_mask_row]
  -- the last of the 8192 rows is zero
  exact sum_mask_last (by norm_num) (fun R => ∑ C : Fin 4095, g R C.val)

end Cert.Rosen
-- ==== Proof.IdealValue.lean ====
/-
  What the kernel computes, at the ideal instance. Write `Y` for the 8192 × 4096 array the host cuts from the input vector
  before the launch and `B` for the weights. At grid point `t` the two input blocks are rows `128·t … 128·t + 127` of `Y`
  and `B`, so the masked sum the body forms over its tile is the sum, over the tile's rows and all columns, of the
  summand of the specification where the column is below 4095 and the row below 8191, and of zero elsewhere (`tileSum`;
  the row mask is written only at the last point, and holds by itself at every other point). The output block after
  point `t` is therefore the running sum of the tile sums restarted at every multiple of 32 (`accum`), in every entry. The
  block is written back after the last step of each core, so the output array holds in its two [8, 128] planes the two
  cores' running sums at points 31 and 63, and their sum is the specification's total.
-/
import proofs.«176487_j37709812858889_2_alg».proof.Proof.IdealFrame
import proofs.«176487_j37709812858889_2_alg».proof.Proof.IdealPay
import proofs.«176487_j37709812858889_2_alg».proof.Proof.IdealBlocks
import proofs.«176487_j37709812858889_2_alg».proof.Proof.LibTileSum

set_option maxRecDepth 16384

noncomputable section

namespace Cert.KernelIdeal.Body

open Cert.KernelIdeal Cert.KernelIdeal.Gen Cert.Rosen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The masked sum over tile `n`: the specification's summand at rows `128·n + r`, zero at column 4095 and at row 8191. -/
def tileSum (c : Dev nD) (n : ℕ) : EReal :=
  ∑ r : Fin 128, ∑ cc : Fin 4096,
    (if cc.val < 4095 ∧ 128 * n + r.val < 8191 then
      termN (V m c main_v1) (m ((c.tc : Thread nD τ).loc main_arg2)) (128 * n + r.val) cc.val else 0)

/-- An entry of the tile the body works on at point `t` is the specification's summand at the tile's global row. -/
theorem tileTerm_eq (c : Dev nD) (t : Fin cfg0.N) (r : Fin 128) (cc : Fin 4096) :
    tileTerm (iblk m c 0 t) (iblk m c 1 t) r cc
      = termN (V m c main_v1) (m ((c.tc : Thread nD τ).loc main_arg2)) (128 * t.val + r.val) cc.val := by
  have hN : t.val < 64 := lt_of_lt_of_eq t.isLt (show cfg0.N = 64 from N_0)
  have hr : r.val < 128 := r.isLt
  have hR : 128 * t.val + r.val < 8192 := by omega
  have e0 : ∀ q : Fin 4096, (iblk m c 0 t : Vec Ideal S128x4096 .f32) (ix2 r q) = V m c main_v1 (ix2 (⟨128 * t.val + r.val, hR⟩ : Fin 8192) q) :=
    fun q => iblk0_apply m c t r q
  have e1 : (iblk m c 1 t : Vec Ideal S128x4096 .f32) (ix2 r cc) = m ((c.tc : Thread nD τ).loc main_arg2) (ix2 (⟨128 * t.val + r.val, hR⟩ : Fin 8192) cc) :=
    iblk1_apply m c t r cc
  unfold tileTerm termN
  rw [dif_pos ⟨hR, cc.isLt⟩]
  unfold term diff
  rw [e0 cc, e0 (prevCol cc), e1]

/-- At a point before the last the column-masked sum of the tile is `tileSum`: the row mask holds at every row. -/
theorem tile_mid (c : Dev nD) (t : Fin cfg0.N) (h : t.val < 63) :
    (∑ r : Fin 128, ∑ cc : Fin 4096, (if cc.val < 4095 then tileTerm (iblk m c 0 t) (iblk m c 1 t) r cc else 0))
      = tileSum m c t.val := by
  unfold tileSum
  refine Finset.sum_congr rfl fun r _ => Finset.sum_congr rfl fun cc _ => ?_
  have hr : r.val < 128 := r.isLt
  rw [tileTerm_eq]
  by_cases hc : cc.val < 4095
  · rw [if_pos hc, if_pos ⟨hc, by omega⟩]
  · rw [if_neg hc, if_neg (fun h' => hc h'.1)]

/-- At the last point the doubly masked sum of the tile is `tileSum`. -/
theorem tile_last (c : Dev nD) (t : Fin cfg0.N) (h : t.val = 63) :
    (∑ r : Fin 128, ∑ cc : Fin 4096, (if cc.val < 4095 ∧ 128 * 63 + r.val < 8191 then tileTerm (iblk m c 0 t) (iblk m c 1 t) r cc else 0))
      = tileSum m c t.val := by
  unfold tileSum
  refine Finset.sum_congr rfl fun r _ => Finset.sum_congr rfl fun cc _ => ?_
  rw [tileTerm_eq, h]

/-- The last point is step 31 of core 1. -/
theorem coords_last : ∀ t : Fin cfg0.N, t.val = 63 → ((grid0.coords t) 0).val = 1 ∧ ((grid0.coords t) 1).val = 31 :=
  (by decide +kernel : ∀ t : Fin grid0.N, t.val = 63 → ((grid0.coords t) 0).val = 1 ∧ ((grid0.coords t) 1).val = 31)

/-- Every entry of the output block after point `n` is the running sum of the tile sums, restarted at multiples of 32. -/
theorem outsAt_eq (c : Dev nD) : ∀ (n : ℕ) (hn : n < cfg0.N) (j : S1x8x128.Idx),
    outsAt m c n hn j = accum (tileSum m c) n := by
  intro n
  induction n with
  | zero =>
    intro hn j
    rw [outsAt_first m c ⟨0, hn⟩ (Nat.zero_mod _), pay4_apply, pay1_apply, tile_mid m c ⟨0, hn⟩ (by show (0 : ℕ) < 63; decide)]
    rfl
  | succ n ih =>
    intro hn j
    have hN : n + 1 < 64 := lt_of_lt_of_eq hn (show cfg0.N = 64 from N_0)
    by_cases h0 : (n + 1) % 32 = 0
    · rw [outsAt_first m c ⟨n + 1, hn⟩ h0, pay4_apply, pay1_apply, tile_mid m c ⟨n + 1, hn⟩ (by dsimp only; omega),
        accum_reset _ _ h0, zero_add]
    · by_cases h1 : n + 1 = 63
      · rw [outsAt_last m c ⟨n + 1, hn⟩ h1,
          pay3_apply _ (coords_last ⟨n + 1, hn⟩ h1).1 (coords_last ⟨n + 1, hn⟩ h1).2, tile_last m c ⟨n + 1, hn⟩ h1,
          accum_step _ _ h0]
        exact congrArg (· + tileSum m c (n + 1)) (ih _ _)
      · rw [outsAt_mid m c ⟨n + 1, hn⟩ h0 h1, pay4_apply, tile_mid m c ⟨n + 1, hn⟩ (by dsimp only; omega),
          accum_step _ _ h0]
        exact congrArg (· + tileSum m c (n + 1)) (ih _ _)

/-- What the output array ends holding: plane `p` carries core `p`'s running sum at its last step. -/
def Gout (c : Dev nD) : S2x8x128.Idx → EReal := fun i => accum (tileSum m c) (32 * (i 0).val + 31)

/-- The output window's block index at point `t` is the core, `t / 32`, on the first axis and zero on the others. -/
theorem idx2_facts : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

/-- What a writing-back point writes back is its block of `Gout`. -/
theorem flushed2_eq (c : Dev nD) (t : Fin cfg0.N) (hf : (cfg0.win 2).flush t = true) :
    (dats m 0 c).flushed 2 t = ((cfg0.win 2).blk t).view.read (Elt Ideal) (Gout m c) := by
  show (cfg0.win 2).cut (grid0.coords t) ((dats m 0 c).after 2 t) = _
  rw [after2]
  have h31 : t.val % 32 = 31 := (flush0_2 t).mp hf
  obtain ⟨e0, e1, e2⟩ := idx2_facts t
  funext j
  show outsAt m c t.val t.isLt j = Gout m c (((cfg0.win 2).blk t).view.emb j)
  rw [outsAt_eq]
  unfold Gout
  refine congrArg (accum (tileSum m c)) ?_
  show t.val = 32 * (win0_2.index t (0 : Fin 3) * 1 + 1 * (j 0).val) + 31
  have hj : (j 0).val < 1 := (j 0).isLt
  omega

/-- An index of the output array is in point `t`'s block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- Every index of the output array is in the block of its plane's last step, which writes back. -/
theorem cover2 (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hlt : 32 * (i 0).val + 31 < cfg0.N := by rw [show cfg0.N = 64 from N_0]; omega
  refine ⟨⟨32 * (i 0).val + 31, hlt⟩, (flush0_2 _).mpr (by dsimp only; omega), ?_⟩
  rw [mem_blk2]
  obtain ⟨e0, e1, e2⟩ := idx2_facts ⟨32 * (i 0).val + 31, hlt⟩
  dsimp only at e0
  intro a
  match a with
  | ⟨0, _⟩ =>
    show win0_2.index ⟨32 * (i 0).val + 31, hlt⟩ (0 : Fin 3) * 1 ≤ (i 0).val ∧ (i 0).val < win0_2.index ⟨32 * (i 0).val + 31, hlt⟩ (0 : Fin 3) * 1 + 1
    omega
  | ⟨1, _⟩ =>
    show win0_2.index ⟨32 * (i 0).val + 31, hlt⟩ (1 : Fin 3) * 8 ≤ (i 1).val ∧ (i 1).val < win0_2.index ⟨32 * (i 0).val + 31, hlt⟩ (1 : Fin 3) * 8 + 8
    omega
  | ⟨2, _⟩ =>
    show win0_2.index ⟨32 * (i 0).val + 31, hlt⟩ (2 : Fin 3) * 128 ≤ (i 2).val ∧ (i 2).val < win0_2.index ⟨32 * (i 0).val + 31, hlt⟩ (2 : Fin 3) * 128 + 128
    omega

/-- The output array after the run. -/
theorem final2 (c : Dev nD) : (dats m 0 c).arrAt 2 cfg0.N = Gout m c :=
  (dats m 0 c).arrAt_eq_of_cover 2 (Gout m c) (fun t hf => flushed2_eq m c t hf) cover2

/-- The two planes' first entries add up to the specification's total: the two cores' running sums are the sums of the
    tile sums over points 0…31 and 32…63, and the 64 masked tile sums together are the sum over the unmasked rectangle. -/
theorem kernel_sum (c : Dev nD) :
    Gout m c (ix3 0 0 0) + Gout m c (ix3 1 0 0) = total (V m c main_v1) (m ((c.tc : Thread nD τ).loc main_arg2)) := by
  show accum (tileSum m c) 31 + accum (tileSum m c) 63 = _
  rw [accum_two]
  unfold tileSum total
  exact masked_tile_sum (termN (V m c main_v1) (m ((c.tc : Thread nD τ).loc main_arg2)))

end Cert.KernelIdeal.Body

end
-- ==== Proof.IdealTail.lean ====
import proofs.«176487_j37709812858889_2_alg».proof.Proof.Gen.KernelIdeal.Frame
import Idealize.ShloMosaic.Lib.ValueIdx
import Idealize.ShloMosaic.Lib.Pipeline.Value
import Idealize.ShloMosaic.Lib.StableHlo.Run

/-
  What the program computes after the launch. The launch leaves an array `O` of shape 2 × 8 × 128 whose entries
  `O[0, 0, 0]` and `O[1, 0, 0]` are two partial sums. The lines that follow add these two entries, form
  `(−a) · ((x₀ − μ) · (x₀ − μ))` from the scalar arguments `a`, `μ` and the first entry `x₀` of the input vector, and
  subtract the sum of the two entries from it. This file reads that last value as one expression in the arguments
  and in `O`, and reads the sum of the two entries at its single index.
-/

noncomputable section

namespace Cert.Rosen

open Cert.KernelIdeal Cert.KernelIdeal.Gen Idealize.ShloMosaic Idealize.ShloMosaic.ValueIdx Idealize.ShloMosaic.TcCoe Idealize.SL.Sem
open Idealize.ShloMosaic.Pipeline (Dat)

/-- The two chosen entries of `O`, each reshaped to a scalar and the two added, is `O[0, 0, 0] + O[1, 0, 0]`: a
    slice of one entry and a reshape of a one-entry array only rename the index. -/
theorem pair_sum_apply (O : S2x8x128.Idx → EReal) (i : S_.Idx) :
    addf (F := Ideal) (φ := .f32) (shapeCast S_ (extractStridedSlice S1x1x1 ![0, 0, 0] O slices_S2x8x128_S1x1x1_0_0_0) shapeCasts_S1x1x1_S_)
         (shapeCast S_ (extractStridedSlice S1x1x1 ![1, 0, 0] O slices_S2x8x128_S1x1x1_1_0_0) shapeCasts_S1x1x1_S_) i
      = O (ix3 0 0 0) + O (ix3 1 0 0) := by
  -- the one index of the 1 × 1 × 1 array sits at row-major position 0, as does the one index of the scalar shape
  have hpos : (S1x1x1.rowMajor (ix3 (0 : Fin 1) (0 : Fin 1) (0 : Fin 1))).val = (S_.rowMajor i).val := by
    rw [Shape.rowMajor_val_three]
    show _ = (Shape.rowMajorPi _ i).val
    rw [Shape.rowMajorPi_zero]
    rfl
  rw [addf_apply,
    shapeCast_apply _ shapeCasts_S1x1x1_S_ i (ix3 (0 : Fin 1) (0 : Fin 1) (0 : Fin 1)) hpos,
    shapeCast_apply _ shapeCasts_S1x1x1_S_ i (ix3 (0 : Fin 1) (0 : Fin 1) (0 : Fin 1)) hpos,
    extractStridedSlice_apply ![0, 0, 0] O slices_S2x8x128_S1x1x1_0_0_0 (ix3 (0 : Fin 1) (0 : Fin 1) (0 : Fin 1))
      (ix3 (0 : Fin 2) (0 : Fin 8) (0 : Fin 128)) (fun a => match a with
        | ⟨0, _⟩ => rfl
        | ⟨1, _⟩ => rfl
        | ⟨2, _⟩ => rfl),
    extractStridedSlice_apply ![1, 0, 0] O slices_S2x8x128_S1x1x1_1_0_0 (ix3 (0 : Fin 1) (0 : Fin 1) (0 : Fin 1))
      (ix3 (1 : Fin 2) (0 : Fin 8) (0 : Fin 128)) (fun a => match a with
        | ⟨0, _⟩ => rfl
        | ⟨1, _⟩ => rfl
        | ⟨2, _⟩ => rfl)]

/-- The value the lines after the launch leave in their last-but-one buffer, for any record of the launch:
    `(−a) · ((x₀ − μ) · (x₀ − μ))` minus the sum of the entries `[0, 0, 0]` and `[1, 0, 0]` of the array the launch
    ends with, where `x₀` is the first entry of the input vector. The arguments reach these lines unchanged, and the
    launch's output array is read as the launch left it. -/
theorem tail_v16 {F : FTy → Type} [FloatOps F] (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) [hostOps1] c main_v16
      = subf (mulf (Host.negf (m ((c.tc : Thread nD τ).loc main_arg1)))
            (mulf (subf (broadcastInDim S1 ![] bcast_S_S1 (shapeCast S_ (extractStridedSlice S1 ![0] (m ((c.tc : Thread nD τ).loc main_arg0)) slices_S33554433_S1_0) shapeCasts_S1_S_)) (m ((c.tc : Thread nD τ).loc main_arg3)))
                  (subf (broadcastInDim S1 ![] bcast_S_S1 (shapeCast S_ (extractStridedSlice S1 ![0] (m ((c.tc : Thread nD τ).loc main_arg0)) slices_S33554433_S1_0) shapeCasts_S1_S_)) (m ((c.tc : Thread nD τ).loc main_arg3)))))
          (broadcastInDim S1 ![] bcast_S_S1
            (addf (shapeCast S_ (extractStridedSlice S1x1x1 ![0, 0, 0] ((dats 0 c).arrAt 2 cfg0.N) slices_S2x8x128_S1x1x1_0_0_0) shapeCasts_S1x1x1_S_)
                  (shapeCast S_ (extractStridedSlice S1x1x1 ![1, 0, 0] ((dats 0 c).arrAt 2 cfg0.N) slices_S2x8x128_S1x1x1_1_0_0) shapeCasts_S1x1x1_S_))) := by
  unfold Pipeline.afterTail₀
  show StableHlo.after hostOps1 _ (Proc.devRef .tc main_v16) = _
  after_results_simp
  -- the launch's output array is read as the launch left it
  have h2 : Pipeline.withArrays (cfgs 0).spec c (V0 m c) (fun w => (dats 0 c).arrAt w (cfgs 0).N) (Proc.devRef .tc main_v2)
      = (dats 0 c).arrAt 2 cfg0.N :=
    Pipeline.withArrays_arr spec0 launch0.win.arr_inj c _ _ 2
  -- the three arguments read here are no array of the launch and no earlier line writes them
  have ha0 : Pipeline.withArrays (cfgs 0).spec c (V0 m c) (fun w => (dats 0 c).arrAt w (cfgs 0).N) (Proc.devRef .tc main_arg0)
      = m ((c.tc : Thread nD τ).loc main_arg0) :=
    (Pipeline.withArrays_of_ne _ c (V0 m c) _ main_arg0
      (by exact (by decide : ∀ w, Pipeline.arrRef spec0 w ≠ main_arg0))).trans (V_main_arg0 m c)
  have ha1 : Pipeline.withArrays (cfgs 0).spec c (V0 m c) (fun w => (dats 0 c).arrAt w (cfgs 0).N) (Proc.devRef .tc main_arg1)
      = m ((c.tc : Thread nD τ).loc main_arg1) :=
    (Pipeline.withArrays_of_ne _ c (V0 m c) _ main_arg1
      (by exact (by decide : ∀ w, Pipeline.arrRef spec0 w ≠ main_arg1))).trans (V_main_arg1 m c)
  have ha3 : Pipeline.withArrays (cfgs 0).spec c (V0 m c) (fun w => (dats 0 c).arrAt w (cfgs 0).N) (Proc.devRef .tc main_arg3)
      = m ((c.tc : Thread nD τ).loc main_arg3) :=
    (Pipeline.withArrays_of_ne _ c (V0 m c) _ main_arg3
      (by exact (by decide : ∀ w, Pipeline.arrRef spec0 w ≠ main_arg3))).trans (V_main_arg3 m c)
  rw [h2, ha0, ha1, ha3]
  rfl

end Cert.Rosen

end
-- ==== Proof.RefSide.lean ====
import proofs.«176487_j37709812858889_2_alg».proof.Defs
import proofs.«176487_j37709812858889_2_alg».proof.Proof.Gen.ReferenceIdeal.Read
import proofs.«176487_j37709812858889_2_alg».proof.Proof.Spec

/-
  The reference program read as mathematics. With `Y` the 8192 × 4096 array cut from the input vector and `B` the
  weights, the reference forms, at row `R < 8191` and column `C < 4095`, the product `B[R, C] · (d · d)` with
  `d = Y[R, C] − P[R, C] · P[R, C]`, where `P` is `Y` with its last column moved in front of the others, so that
  `P[R, C] = Y[R, C − 1]`, the column before taken cyclically. It then adds these products up from zero. This file
  shows that the sum the reference forms is `0 + total Y B`.
-/

noncomputable section

namespace Cert.Rosen

open Idealize.ShloMosaic Idealize.ShloMosaic.ValueIdx
open Cert.ReferenceIdeal (S33554433 S8192x4096 S8191x4095 S8192x1 S8192x4095 S_)

/-- The array `P` made of the last column of `Y` followed by its first 4095 columns holds, at row `R` and column
    `C`, the entry of `Y` in the same row one column before, cyclically: column 0 takes `Y[R, 4095]` and a column
    `C ≥ 1` takes `Y[R, C − 1]`. -/
theorem rolled_apply (x0 : (⟨S33554433, .f32⟩ : BufTy).Contents (Elt Ideal)) (R : Fin 8192) (C : Fin 4096) :
    Cert.ReferenceIdeal.Read.val_main_v3 (F := Ideal) x0 (ix2 R C)
      = Cert.ReferenceIdeal.Read.val_main_v1 (F := Ideal) x0 (ix2 R (prevCol C)) := by
  unfold Cert.ReferenceIdeal.Read.val_main_v3
  by_cases hC : C.val = 0
  · -- column 0 lies in the first piece, the single column 4095 of `Y`
    rw [concatenate_pair_apply_left (t := S8192x4096) (s₁ := S8192x1) (s₂ := S8192x4095) (1 : Fin 2) _ _ _ (ix2 R C) rfl (ix2 R (⟨0, by decide⟩ : Fin 1)) (fun b => by
      match b with
      | ⟨0, _⟩ => rfl
      | ⟨1, _⟩ => exact hC.symm)]
    rw [Cert.ReferenceIdeal.Read.val_main_call0_v0_apply]
    congr 1
    funext a
    match a with
    | ⟨0, _⟩ => rfl
    | ⟨1, _⟩ =>
      apply Fin.ext
      show 4095 + 0 = (C.val + 4095) % 4096
      omega
  · -- a column C ≥ 1 lies in the second piece, the first 4095 columns of `Y`, at column C − 1
    have hlt : C.val < 4096 := C.isLt
    rw [concatenate_pair_apply_right (t := S8192x4096) (s₁ := S8192x1) (s₂ := S8192x4095) (1 : Fin 2) _ _ _ (ix2 R C) rfl rfl
      (ix2 R (⟨C.val - 1, by omega⟩ : Fin 4095))
      (fun b hb => by
        match b with
        | ⟨0, _⟩ => rfl
        | ⟨1, _⟩ => exact absurd rfl hb)
      (by show C.val - 1 + 1 = C.val; omega)]
    rw [Cert.ReferenceIdeal.Read.val_main_call0_v1_apply]
    congr 1
    funext a
    match a with
    | ⟨0, _⟩ => rfl
    | ⟨1, _⟩ =>
      apply Fin.ext
      show C.val - 1 = (C.val + 4095) % 4096
      omega

/-- At row `R < 8191` and column `C < 4095` the product the reference forms, `B · (d · d)`, is the summand
    `(B · d) · d` of the total: multiplication of extended reals is associative. -/
theorem ref_term (x0 : (⟨S33554433, .f32⟩ : BufTy).Contents (Elt Ideal))
    (x2 : (⟨S8192x4096, .f32⟩ : BufTy).Contents (Elt Ideal)) (R : Fin 8191) (C : Fin 4095) :
    Cert.ReferenceIdeal.Read.val_main_v9 (F := Ideal) x0 x2 (ix2 R C)
      = termN (Cert.ReferenceIdeal.Read.val_main_v1 (F := Ideal) x0) x2 R.val C.val := by
  have hR : R.val < 8192 := by have := R.isLt; omega
  have hC : C.val < 4096 := by have := C.isLt; omega
  -- the three cuts to 8191 × 4095 read their operand at the same row and column
  have e2 : Cert.ReferenceIdeal.Read.idx_main_v2 (ix2 R C) = ix2 (⟨R.val, hR⟩ : Fin 8192) (⟨C.val, hC⟩ : Fin 4096) := by
    funext a
    match a with
    | ⟨0, _⟩ => rfl
    | ⟨1, _⟩ => rfl
  have e4 : Cert.ReferenceIdeal.Read.idx_main_v4 (ix2 R C) = ix2 (⟨R.val, hR⟩ : Fin 8192) (⟨C.val, hC⟩ : Fin 4096) := by
    funext a
    match a with
    | ⟨0, _⟩ => rfl
    | ⟨1, _⟩ => rfl
  have e5 : Cert.ReferenceIdeal.Read.idx_main_v5 (ix2 R C) = ix2 (⟨R.val, hR⟩ : Fin 8192) (⟨C.val, hC⟩ : Fin 4096) := by
    funext a
    match a with
    | ⟨0, _⟩ => rfl
    | ⟨1, _⟩ => rfl
  rw [Cert.ReferenceIdeal.Read.val_main_v9_apply, Cert.ReferenceIdeal.Read.val_main_v8_apply,
    Cert.ReferenceIdeal.Read.val_main_v7_apply, Cert.ReferenceIdeal.Read.val_main_v6_apply,
    Cert.ReferenceIdeal.Read.val_main_v5_apply, Cert.ReferenceIdeal.Read.val_main_v4_apply,
    Cert.ReferenceIdeal.Read.val_main_v2_apply, e2, e4, e5, rolled_apply]
  unfold termN
  rw [dif_pos ⟨hR, hC⟩]
  unfold term diff
  simp only [Ideal.mulf_def, Ideal.subf_def]
  exact (mul_assoc _ _ _).symm

/-- The reference's sum: zero plus the sum, over rows below 8191 and columns below 4095, of the summand. -/
theorem ref_sum (x0 : (⟨Cert.ReferenceIdeal.S33554433, .f32⟩ : BufTy).Contents (Elt Ideal)) (x2 : (⟨Cert.ReferenceIdeal.S8192x4096, .f32⟩ : BufTy).Contents (Elt Ideal)) (i : Cert.ReferenceIdeal.S_.Idx) :
    Cert.ReferenceIdeal.Read.val_main_v17 (F := Ideal) x0 x2 i = 0 + total (Cert.ReferenceIdeal.Read.val_main_v1 (F := Ideal) x0) x2 := by
  -- the sum over every index of the 8191 × 4095 array is the double sum over rows and columns
  have hs : ∑ j : S8191x4095.Idx, Cert.ReferenceIdeal.Read.val_main_v9 (F := Ideal) x0 x2 j
      = total (Cert.ReferenceIdeal.Read.val_main_v1 (F := Ideal) x0) x2 := by
    rw [sum_idx2]
    unfold total
    exact Finset.sum_congr rfl (fun R _ => Finset.sum_congr rfl (fun C _ => ref_term x0 x2 R C))
  -- the initial value is the word of all zero bits, which is the number zero
  have h0 : FloatOps.ofBits (F := Ideal) .f32 0x00000000#32 = 0 := Ideal.ofBits_zero_f32
  rw [Cert.ReferenceIdeal.Read.val_main_v17_apply, hs, Cert.ReferenceIdeal.Read.val_main_cst_apply, h0]

end Cert.Rosen

end
-- ==== Proof.IdealAlg.lean ====
/-
  The two idealized programs end with equal results. Both finish with the same last lines: the result is
  `(−a)·((x₀ − μ)·(x₀ − μ)) − s`, where `s` is, for the kernel program, the sum of the first entries of the two planes of the
  launch's output array and, for the reference, its one big sum. The kernel's `s` is the specification's total; the
  reference's is zero plus the same total. So the two results are the same function of the arguments.
-/
import proofs.«176487_j37709812858889_2_alg».proof.Defs
import proofs.«176487_j37709812858889_2_alg».proof.Proof.IdealValue
import proofs.«176487_j37709812858889_2_alg».proof.Proof.IdealTail
import proofs.«176487_j37709812858889_2_alg».proof.Proof.RefSide
import proofs.«176487_j37709812858889_2_alg».proof.Proof.Gen.Pre_finite_inputs

set_option maxRecDepth 16384

noncomputable section

namespace Cert.Proof

open Cert.KernelIdeal Cert.KernelIdeal.Gen Cert.KernelIdeal.Body Cert.Rosen
open Idealize.ShloMosaic Idealize.ShloMosaic.TcCoe Idealize.ShloMosaic.ValueIdx
open Idealize.SL Idealize.SL.Sem

/-- The programs' common last lines: `(−a)·((x₀ − μ)·(x₀ − μ)) − s`, with `x₀` the first entry of `x`. -/
def resultFn (x : FVec Ideal S33554433 .f32) (a mu : FVec Ideal S1 .f32) (s : FVec Ideal S_ .f32) : FVec Ideal S1 .f32 :=
  subf (F := Ideal) (φ := .f32) (mulf (F := Ideal) (φ := .f32) (Host.negf (F := Ideal) (φ := .f32) a)
      (mulf (F := Ideal) (φ := .f32)
        (subf (F := Ideal) (φ := .f32) (broadcastInDim S1 ![] bcast_S_S1 (shapeCast S_ (extractStridedSlice S1 ![0] x slices_S33554433_S1_0) shapeCasts_S1_S_)) mu)
        (subf (F := Ideal) (φ := .f32) (broadcastInDim S1 ![] bcast_S_S1 (shapeCast S_ (extractStridedSlice S1 ![0] x slices_S33554433_S1_0) shapeCasts_S1_S_)) mu)))
    (broadcastInDim S1 ![] bcast_S_S1 s)

/-- The kernel program's run with its result named: the common last lines at the specification's total. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v16)
        = resultFn (m ((c.tc : Thread nD τ).loc main_arg0)) (m ((c.tc : Thread nD τ).loc main_arg1)) (m ((c.tc : Thread nD τ).loc main_arg3))
            (fun _ => total (V m c main_v1) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main (F := Ideal) m ρ)
  refine ((h c).2 main_v16 (Pipeline.mem_restRefs_of main_v16 (by decide) (by decide))).trans ?_
  rw [tail_v16 m (dats m) c]
  have hS : addf (F := Ideal) (φ := .f32)
        (shapeCast S_ (extractStridedSlice S1x1x1 ![0, 0, 0] ((dats m 0 c).arrAt 2 cfg0.N) slices_S2x8x128_S1x1x1_0_0_0) shapeCasts_S1x1x1_S_)
        (shapeCast S_ (extractStridedSlice S1x1x1 ![1, 0, 0] ((dats m 0 c).arrAt 2 cfg0.N) slices_S2x8x128_S1x1x1_1_0_0) shapeCasts_S1x1x1_S_)
      = fun _ => total (V m c main_v1) (m ((c.tc : Thread nD τ).loc main_arg2)) := by
    funext i
    rw [final2 m c, pair_sum_apply]
    exact kernel_sum m c
  exact congrArg (resultFn (m ((c.tc : Thread nD τ).loc main_arg0)) (m ((c.tc : Thread nD τ).loc main_arg1)) (m ((c.tc : Thread nD τ).loc main_arg3))) hS

theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  show resultFn (m ((c.tc : Thread nD τ).loc main_arg0)) (m ((c.tc : Thread nD τ).loc main_arg1)) (m ((c.tc : Thread nD τ).loc main_arg3))
      (Cert.ReferenceIdeal.Read.val_main_v17 (F := Ideal) (m ((c.tc : Thread nD τ).loc main_arg0)) (m ((c.tc : Thread nD τ).loc main_arg2))) = _
  refine congrArg (resultFn (m ((c.tc : Thread nD τ).loc main_arg0)) (m ((c.tc : Thread nD τ).loc main_arg1)) (m ((c.tc : Thread nD τ).loc main_arg3))) ?_
  funext i
  rw [ref_sum, zero_add, V_main_v1]
  rfl

end Cert.Proof

end
-- ==== Proof.lean ====
/-
  The certificate of the sum-of-weighted-squares kernel against its reference. The word-level kernel program and its
  idealization run, terminate and leave their arguments unchanged (the launch theorem applied to the body's three cases,
  once per instance); the reference does so by its generated run. The idealization rewrote nothing, so there is nothing
  to preserve. At the ideal instance the kernel program and the reference compute the same extended real: both end in
  `(−a)·((x₀ − μ)·(x₀ − μ)) − s`, and the kernel's `s` — two per-core running sums of masked per-tile sums — is the
  reference's one sum over the rows below 8191 and the columns below 4095, by commutativity and associativity of addition
  and associativity of multiplication alone, with no appeal to finiteness.
-/
import proofs.«176487_j37709812858889_2_alg».proof.Defs
import proofs.«176487_j37709812858889_2_alg».proof.Proof.Gen.Kernel
import proofs.«176487_j37709812858889_2_alg».proof.Proof.Gen.KernelIdeal
import proofs.«176487_j37709812858889_2_alg».proof.Proof.Gen.ReferenceIdeal
import proofs.«176487_j37709812858889_2_alg».proof.Proof.Gen.Pre_finite_inputs
import proofs.«176487_j37709812858889_2_alg».proof.Proof.BitsFrame
import proofs.«176487_j37709812858889_2_alg».proof.Proof.IdealAlg
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
